-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x512 .f32) (main_arg1 : IVec S2x800000 32) (main_arg2 : FVec F S512x256 .f32) (main_arg3 : FVec F S256 .f32) (main_arg4 : FVec F S256x128 .f32) (main_arg5 : FVec F S128 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S100000x512 : Shape := ⟨2, ![100000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S100000x256 : Shape := ⟨2, ![100000, 256]⟩
abbrev S2000x512 : Shape := ⟨2, ![2000, 512]⟩
abbrev S2000x256 : Shape := ⟨2, ![2000, 256]⟩
abbrev S900000x256 : Shape := ⟨2, ![900000, 256]⟩
abbrev S1x256 : Shape := ⟨2, ![1, 256]⟩
abbrev S100000x128 : Shape := ⟨2, ![100000, 128]⟩
abbrev S2000x128 : Shape := ⟨2, ![2000, 128]⟩
abbrev S900000x128 : Shape := ⟨2, ![900000, 128]⟩
abbrev S1x128 : Shape := ⟨2, ![1, 128]⟩

abbrev nBuf : Space → Nat
  | .hbm => 89
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S100000, .i32⟩
  | .hbm, ⟨7, _⟩ => ⟨S1x800000, .i32⟩
  | .hbm, ⟨8, _⟩ => ⟨S800000, .i32⟩
  | .hbm, ⟨9, _⟩ => ⟨S900000, .i32⟩
  | .hbm, ⟨10, _⟩ => ⟨S1x800000, .i32⟩
  | .hbm, ⟨11, _⟩ => ⟨S800000, .i32⟩
  | .hbm, ⟨12, _⟩ => ⟨S900000, .i32⟩
  | .hbm, ⟨13, _⟩ => ⟨S_, .f32⟩
  | .hbm, ⟨14, _⟩ => ⟨S900000, .f32⟩
  | .hbm, ⟨15, _⟩ => ⟨S_, .f32⟩
  | .hbm, ⟨16, _⟩ => ⟨S100000, .f32⟩
  | .hbm, ⟨17, _⟩ => ⟨S900000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S900000, .i32⟩
  | .hbm, ⟨29, _⟩ => ⟨S900000, .i1⟩
  | .hbm, ⟨30, _⟩ => ⟨S_, .i32⟩
  | .hbm, ⟨31, _⟩ => ⟨S900000, .i32⟩
  | .hbm, ⟨32, _⟩ => ⟨S900000, .i32⟩
  | .hbm, ⟨33, _⟩ => ⟨S900000, .i32⟩
  | .hbm, ⟨34, _⟩ => ⟨S900000x1, .i32⟩
  | .hbm, ⟨35, _⟩ => ⟨S900000, .f32⟩
  | .hbm, ⟨36, _⟩ => ⟨S_, .i32⟩
  | .hbm, ⟨37, _⟩ => ⟨S900000, .i32⟩
  | .hbm, ⟨38, _⟩ => ⟨S900000, .i1⟩
  | .hbm, ⟨39, _⟩ => ⟨S_, .i32⟩
  | .hbm, ⟨40, _⟩ => ⟨S900000, .i32⟩
  | .hbm, ⟨41, _⟩ => ⟨S900000, .i32⟩
  | .hbm, ⟨42, _⟩ => ⟨S900000, .i32⟩
  | .hbm, ⟨43, _⟩ => ⟨S900000x1, .i32⟩
  | .hbm, ⟨44, _⟩ => ⟨S900000, .f32⟩
  | .hbm, ⟨45, _⟩ => ⟨S900000, .f32⟩
  | .hbm, ⟨46, _⟩ => ⟨S100000x256, .f32⟩
  | .hbm, ⟨47, _⟩ => ⟨S_, .i32⟩
  | .hbm, ⟨48, _⟩ => ⟨S900000, .i32⟩
  | .hbm, ⟨49, _⟩ => ⟨S900000, .i1⟩
  | .hbm, ⟨50, _⟩ => ⟨S_, .i32⟩
  | .hbm, ⟨51, _⟩ => ⟨S900000, .i32⟩
  | .hbm, ⟨52, _⟩ => ⟨S900000, .i32⟩
  | .hbm, ⟨53, _⟩ => ⟨S900000, .i32⟩
  | .hbm, ⟨54, _⟩ => ⟨S900000x1, .i32⟩
  | .hbm, ⟨55, _⟩ => ⟨S900000x256, .f32⟩
  | .hbm, ⟨56, _⟩ => ⟨S900000x1, .f32⟩
  | .hbm, ⟨57, _⟩ => ⟨S900000x256, .f32⟩
  | .hbm, ⟨58, _⟩ => ⟨S900000x256, .f32⟩
  | .hbm, ⟨59, _⟩ => ⟨S_, .f32⟩
  | .hbm, ⟨60, _⟩ => ⟨S100000x256, .f32⟩
  | .hbm, ⟨61, _⟩ => ⟨S900000x1, .i32⟩
  | .hbm, ⟨62, _⟩ => ⟨S100000x256, .f32⟩
  | .hbm, ⟨63, _⟩ => ⟨S1x256, .f32⟩
  | .hbm, ⟨64, _⟩ => ⟨S100000x256, .f32⟩
  | .hbm, ⟨65, _⟩ => ⟨S100000x256, .f32⟩
  | .hbm, ⟨66, _⟩ => ⟨S_, .f32⟩
  | .hbm, ⟨67, _⟩ => ⟨S100000x256, .f32⟩
  | .hbm, ⟨68, _⟩ => ⟨S100000x256, .f32⟩
  | .hbm, ⟨69, _⟩ => ⟨S100000x128, .f32⟩
  | .hbm, ⟨70, _⟩ => ⟨S_, .i32⟩
  | .hbm, ⟨71, _⟩ => ⟨S900000, .i32⟩
  | .hbm, ⟨72, _⟩ => ⟨S900000, .i1⟩
  | .hbm, ⟨73, _⟩ => ⟨S_, .i32⟩
  | .hbm, ⟨74, _⟩ => ⟨S900000, .i32⟩
  | .hbm, ⟨75, _⟩ => ⟨S900000, .i32⟩
  | .hbm, ⟨76, _⟩ => ⟨S900000, .i32⟩
  | .hbm, ⟨77, _⟩ => ⟨S900000x1, .i32⟩
  | .hbm, ⟨78, _⟩ => ⟨S900000x128, .f32⟩
  | .hbm, ⟨79, _⟩ => ⟨S900000x1, .f32⟩
  | .hbm, ⟨80, _⟩ => ⟨S900000x128, .f32⟩
  | .hbm, ⟨81, _⟩ => ⟨S900000x128, .f32⟩
  | .hbm, ⟨82, _⟩ => ⟨S_, .f32⟩
  | .hbm, ⟨83, _⟩ => ⟨S100000x128, .f32⟩
  | .hbm, ⟨84, _⟩ => ⟨S900000x1, .i32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x128, .f32⟩
  | .local _ .vmem, ⟨8, _⟩ => ⟨S2000x128, .f32⟩
  | .local _ .vmem, ⟨9, _⟩ => ⟨S2000x128, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S900000x1_S900000x256_0_1 : S900000x1.BroadcastsInDim S900000x256 (![0, 1] : Fin 2 → Fin S900000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S2000x512_S512x256_S2000x256_1_0_0_1_n_n_wf : DotDims.WF S2000x512 S512x256 S2000x256 [1] [0] [0] [1] [] []
  gather_S100000x256_S900000x1_S900000x256_1_0_n_n_0_1_1256_wf : GatherDims.WF S100000x256 S900000x1 S900000x256 [1] [0] [] [0] [] 1 ![1, 256]
  scatter_S100000x256_S900000x1_S900000x256_1_0_0_1_wf : ScatterDims.WF S100000x256 S900000x1 S900000x256 [1] [0] [0] 1
  dot_S2000x256_S256x128_S2000x128_1_0_0_1_n_n_wf : DotDims.WF S2000x256 S256x128 S2000x128 [1] [0] [0] [1] [] []
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S100000x256.size a
  hwx0_2 : ∀ i : grid0.Coords, EltTy.bits .f32 = 32 ∨ (Rect.block (s := S100000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S100000x256_S900000x1_S900000x256_1_0_n_n_0_1_1256 : GatherDims S100000x256 S900000x1 S900000x256 where
  offsetDims := [1]
  collapsedSliceDims := [0]
  operandBatchingDims := []
  startIndicesBatchingDims := []
  startIndexMap := [0]
  indexVectorDim := 1
  sliceSizes := ![1, 256]
  wf := gather_S100000x256_S900000x1_S900000x256_1_0_n_n_0_1_1256_wf
def scatter_S100000x256_S900000x1_S900000x256_1_0_0_1 : ScatterDims S100000x256 S900000x1 S900000x256 where
  updateWindowDims := [1]
  insertedWindowDims := [0]
  scatterDimsToOperandDims := [0]
  indexVectorDim := 1
  wf := scatter_S100000x256_S900000x1_S900000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S100000x256 : Shape := ⟨2, ![100000, 256]⟩
abbrev S_ : Shape := ⟨0, ![]⟩
abbrev S900000x1 : Shape := ⟨2, ![900000, 1]⟩
abbrev S900000x256 : Shape := ⟨2, ![900000, 256]⟩
abbrev S1x256 : Shape := ⟨2, ![1, 256]⟩
abbrev S100000x128 : Shape := ⟨2, ![100000, 128]⟩
abbrev S900000x128 : Shape := ⟨2, ![900000, 128]⟩
abbrev S1x128 : Shape := ⟨2, ![1, 128]⟩

abbrev nBuf : Space → Nat
  | .hbm => 129
  | .vmem => 0
  | .smem => 0
  | _ => 0

abbrev hbmTy0_0 (i : Nat) : BufTy := match i % 128 with
  | 0 => ⟨S100000x512, .f32⟩
  | 1 => ⟨S2x800000, .i32⟩
  | 2 => ⟨S512x256, .f32⟩
  | 3 => ⟨S256, .f32⟩
  | 4 => ⟨S256x128, .f32⟩
  | 5 => ⟨S128, .f32⟩
  | 6 => ⟨S100000, .i32⟩
  | 7 => ⟨S1x800000, .i32⟩
  | 8 => ⟨S800000, .i32⟩
  | 9 => ⟨S900000, .i32⟩
  | 10 => ⟨S1x800000, .i32⟩
  | 11 => ⟨S800000, .i32⟩
  | 12 => ⟨S900000, .i32⟩
  | 13 => ⟨S100000x256, .f32⟩
  | 14 => ⟨S_, .f32⟩
  | 15 => ⟨S900000, .f32⟩
  | 16 => ⟨S_, .f32⟩
  | 17 => ⟨S100000, .f32⟩
  | 18 => ⟨S900000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S900000, .i32⟩
  | 30 => ⟨S900000, .i1⟩
  | 31 => ⟨S_, .i32⟩
  | 32 => ⟨S900000, .i32⟩
  | 33 => ⟨S900000, .i32⟩
  | 34 => ⟨S900000, .i32⟩
  | 35 => ⟨S900000x1, .i32⟩
  | 36 => ⟨S900000, .f32⟩
  | 37 => ⟨S_, .i32⟩
  | 38 => ⟨S900000, .i32⟩
  | 39 => ⟨S900000, .i1⟩
  | 40 => ⟨S_, .i32⟩
  | 41 => ⟨S900000, .i32⟩
  | 42 => ⟨S900000, .i32⟩
  | 43 => ⟨S900000, .i32⟩
  | 44 => ⟨S900000x1, .i32⟩
  | 45 => ⟨S900000, .f32⟩
  | 46 => ⟨S900000, .f32⟩
  | 47 => ⟨S_, .i32⟩
  | 48 => ⟨S900000, .i32⟩
  | 49 => ⟨S900000, .i1⟩
  | 50 => ⟨S_, .i32⟩
  | 51 => ⟨S900000, .i32⟩
  | 52 => ⟨S900000, .i32⟩
  | 53 => ⟨S900000, .i32⟩
  | 54 => ⟨S900000x1, .i32⟩
  | 55 => ⟨S900000x256, .f32⟩
  | 56 => ⟨S900000x1, .f32⟩
  | 57 => ⟨S900000x256, .f32⟩
  | 58 => ⟨S900000x256, .f32⟩
  | 59 => ⟨S_, .f32⟩
  | 60 => ⟨S100000x256, .f32⟩
  | 61 => ⟨S900000x1, .i32⟩
  | 62 => ⟨S100000x256, .f32⟩
  | 63 => ⟨S1x256, .f32⟩
  | 64 => ⟨S100000x256, .f32⟩
  | 65 => ⟨S100000x256, .f32⟩
  | 66 => ⟨S_, .f32⟩
  | 67 => ⟨S100000x256, .f32⟩
  | 68 => ⟨S100000x256, .f32⟩
  | 69 => ⟨S100000, .i32⟩
  | 70 => ⟨S1x800000, .i32⟩
  | 71 => ⟨S800000, .i32⟩
  | 72 => ⟨S900000, .i32⟩
  | 73 => ⟨S1x800000, .i32⟩
  | 74 => ⟨S800000, .i32⟩
  | 75 => ⟨S900000, .i32⟩
  | 76 => ⟨S100000x128, .f32⟩
  | 77 => ⟨S_, .f32⟩
  | 78 => ⟨S900000, .f32⟩
  | 79 => ⟨S_, .f32⟩
  | 80 => ⟨S100000, .f32⟩
  | 81 => ⟨S900000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S900000, .i32⟩
  | 93 => ⟨S900000, .i1⟩
  | 94 => ⟨S_, .i32⟩
  | 95 => ⟨S900000, .i32⟩
  | 96 => ⟨S900000, .i32⟩
  | 97 => ⟨S900000, .i32⟩
  | 98 => ⟨S900000x1, .i32⟩
  | 99 => ⟨S900000, .f32⟩
  | 100 => ⟨S_, .i32⟩
  | 101 => ⟨S900000, .i32⟩
  | 102 => ⟨S900000, .i1⟩
  | 103 => ⟨S_, .i32⟩
  | 104 => ⟨S900000, .i32⟩
  | 105 => ⟨S900000, .i32⟩
  | 106 => ⟨S900000, .i32⟩
  | 107 => ⟨S900000x1, .i32⟩
  | 108 => ⟨S900000, .f32⟩
  | 109 => ⟨S900000, .f32⟩
  | 110 => ⟨S_, .i32⟩
  | 111 => ⟨S900000, .i32⟩
  | 112 => ⟨S900000, .i1⟩
  | 113 => ⟨S_, .i32⟩
  | 114 => ⟨S900000, .i32⟩
  | 115 => ⟨S900000, .i32⟩
  | 116 => ⟨S900000, .i32⟩
  | 117 => ⟨S900000x1, .i32⟩
  | 118 => ⟨S900000x128, .f32⟩
  | 119 => ⟨S900000x1, .f32⟩
  | 120 => ⟨S900000x128, .f32⟩
  | 121 => ⟨S900000x128, .f32⟩
  | 122 => ⟨S_, .f32⟩
  | 123 => ⟨S100000x128, .f32⟩
  | 124 => ⟨S900000x1, .i32⟩
  | 125 => ⟨S100000x128, .f32⟩
  | 126 => ⟨S1x128, .f32⟩
  | 127 => ⟨S100000x128, .f32⟩
  | _ => ⟨S100000x512, .f32⟩

abbrev hbmTy0_1 (i : Nat) : BufTy := match i % 128 with
  | 0 => ⟨S100000x128, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x256_0_1 : S900000x1.BroadcastsInDim S900000x256 (![0, 1] : Fin 2 → Fin S900000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x512_S512x256_S100000x256_1_0_0_1_n_n_wf : DotDims.WF S100000x512 S512x256 S100000x256 [1] [0] [0] [1] [] []
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  gather_S100000x256_S900000x1_S900000x256_1_0_n_n_0_1_1256_wf : GatherDims.WF S100000x256 S900000x1 S900000x256 [1] [0] [] [0] [] 1 ![1, 256]
  scatter_S100000x256_S900000x1_S900000x256_1_0_0_1_wf : ScatterDims.WF S100000x256 S900000x1 S900000x256 [1] [0] [0] 1
  dot_S100000x256_S256x128_S100000x128_1_0_0_1_n_n_wf : DotDims.WF S100000x256 S256x128 S100000x128 [1] [0] [0] [1] [] []
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1

variable [Facts₀]

def dot_S100000x512_S512x256_S100000x256_1_0_0_1_n_n : DotDims S100000x512 S512x256 S100000x256 where
  lhsContracting := [1]
  rhsContracting := [0]
  lhsNonContracting := [0]
  rhsNonContracting := [1]
  lhsBatch := []
  rhsBatch := []
  wf := dot_S100000x512_S512x256_S100000x256_1_0_0_1_n_n_wf
def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x256_S900000x1_S900000x256_1_0_n_n_0_1_1256 : GatherDims S100000x256 S900000x1 S900000x256 where
  offsetDims := [1]
  collapsedSliceDims := [0]
  operandBatchingDims := []
  startIndicesBatchingDims := []
  startIndexMap := [0]
  indexVectorDim := 1
  sliceSizes := ![1, 256]
  wf := gather_S100000x256_S900000x1_S900000x256_1_0_n_n_0_1_1256_wf
def scatter_S100000x256_S900000x1_S900000x256_1_0_0_1 : ScatterDims S100000x256 S900000x1 S900000x256 where
  updateWindowDims := [1]
  insertedWindowDims := [0]
  scatterDimsToOperandDims := [0]
  indexVectorDim := 1
  wf := scatter_S100000x256_S900000x1_S900000x256_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf

class Facts : Prop extends Facts₀ where

variable [Facts]
-- ==== Proof.Spec.lean ====
/-
  The two-layer graph convolution both programs compute, as one function of the six argument arrays, for any float
  instance. Nodes 0 … 99999; the edge list is [2, 800000]; every node also gets a self loop, so there are 900000
  messages. With s, d the source and target of message j,
    deg(i)   = the number of messages whose target is i            (a scatter-add of ones)
    dinv(i)  = deg(i)^(-1/2) where deg(i) > 0, else 0
    norm(j)  = dinv(s j) · dinv(d j)
    layer(h, b)(i, ·) = (Σ over the messages j with d j = i of h(s j, ·) · norm(j)) + b
  and the network is layer(relu(layer(x · W1, b1)) · W2, b2). The gathers, the scatter-adds and the index wrap (a
  negative index counts from the end) are kept as the host operations that state them: the proof never opens them,
  it only needs that both programs apply the SAME ones to equal operands. The two dense products are host
  contractions here; that the kernels' row-blocked products are these is proved in the modules on the blocks.
-/
import proofs.«103638_j61323543052323_1_alg».proof.Proof.Gen.KernelIdeal

noncomputable section

namespace Cert.Gcn

open Idealize.ShloMosaic Cert.KernelIdeal Cert.KernelIdeal.Facts₀ Cert.KernelIdeal.Facts

variable {F : FTy → Type} [FloatOps F]

local notation "Arr[" S ", " e "]" => BufTy.Contents (Elt F) (BufTy.mk S e)

/-- One row of the edge list (`row = ![0, 0]`: the sources, `![1, 0]`: the targets) followed by the self loops
    0 … 99999: the 900000 message endpoints. -/
def ends (row : Fin 2 → Nat) (h : S2x800000.Slices row S1x800000) (e : Arr[S2x800000, .i32]) : Arr[S900000, .i32] :=
  concatenate S900000 0 [⟨S800000, (shapeCast S800000 (extractStridedSlice S1x800000 row e h) shapeCasts_S1x800000_S800000)⟩, ⟨S100000, (iotaInDim S100000 32 0)⟩] concatenates_S800000_S100000_S900000_d0

/-- The messages' source nodes. -/
def src (e : Arr[S2x800000, .i32]) : Arr[S900000, .i32] := ends (F := F) ![0, 0] slices_S2x800000_S1x800000_0_0 e
/-- The messages' target nodes. -/
def dst (e : Arr[S2x800000, .i32]) : Arr[S900000, .i32] := ends (F := F) ![1, 0] slices_S2x800000_S1x800000_1_0 e

/-- Node ids as a column of gather start indices, a negative id counted from the end (id + 100000). -/
def startIdx (s : Arr[S900000, .i32]) : Arr[S900000x1, .i32] :=
  broadcastInDim S900000x1 ![0] bcast_S900000_S900000x1_0 (select (cmpi .slt s (broadcastInDim S900000 ![] bcast_S_S900000 (constantI S_ 32 0#32))) (addi s (broadcastInDim S900000 ![] bcast_S_S900000 (constantI S_ 32 100000#32))) s)

/-- deg: how many messages arrive at each node (ones scattered-added at the targets). -/
def deg (d : Arr[S900000, .i32]) : Arr[S100000, .f32] :=
  Host.scatterAdd (F := F) scatter_S100000_S900000x1_S900000_n_0_0_1 (broadcastInDim S100000 ![] bcast_S_S100000 (constant (F := F) S_ .f32 0x00000000#32)) (broadcastInDim S900000x1 ![0] bcast_S900000_S900000x1_0 d) (broadcastInDim S900000 ![] bcast_S_S900000 (constant (F := F) S_ .f32 0x3F800000#32))

/-- dinv: deg^(-1/2) where deg > 0, else 0. -/
def dinv (d : Arr[S900000, .i32]) : Arr[S100000, .f32] :=
  select (cmpf (F := F) .ogt (deg (F := F) d) (broadcastInDim S100000 ![] bcast_S_S100000 (constant (F := F) S_ .f32 0x00000000#32))) (Host.rsqrt (F := F) (deg (F := F) d)) (broadcastInDim S100000 ![] bcast_S_S100000 (id (constant (F := F) S_ .f32 0x00000000#32)))

/-- norm: one weight per message, dinv at its source times dinv at its target. -/
def norm (s d : Arr[S900000, .i32]) : Arr[S900000, .f32] :=
  mulf (F := F) (Host.gather gather_S100000_S900000x1_S900000_n_0_n_n_0_1_1 (dinv (F := F) d) (startIdx (F := F) s)) (Host.gather gather_S100000_S900000x1_S900000_n_0_n_n_0_1_1 (dinv (F := F) d) (startIdx (F := F) d))

/-- The first layer's aggregation: the rows of `h` gathered at the sources, scaled message by message, scatter-added
    at the targets, plus the bias row. -/
def agg256 (h : Arr[S100000x256, .f32]) (s d : Arr[S900000, .i32]) (n : Arr[S900000, .f32]) (b : Arr[S256, .f32]) : Arr[S100000x256, .f32] :=
  addf (F := F) (Host.scatterAdd (F := F) scatter_S100000x256_S900000x1_S900000x256_1_0_0_1 (broadcastInDim S100000x256 ![] bcast_S_S100000x256 (constant (F := F) S_ .f32 0x00000000#32)) (broadcastInDim S900000x1 ![0] bcast_S900000_S900000x1_0 d) (mulf (F := F) (Host.gather gather_S100000x256_S900000x1_S900000x256_1_0_n_n_0_1_1256 h (startIdx (F := F) s)) (broadcastInDim S900000x256 ![0, 1] bcast_S900000x1_S900000x256_0_1 (broadcastInDim S900000x1 ![0] bcast_S900000_S900000x1_0 n)))) (broadcastInDim S100000x256 ![0, 1] bcast_S1x256_S100000x256_0_1 (broadcastInDim S1x256 ![1] bcast_S256_S1x256_1 b))

/-- relu, entry by entry. -/
def relu256 (a : Arr[S100000x256, .f32]) : Arr[S100000x256, .f32] :=
  maximumf (F := F) a (broadcastInDim S100000x256 ![] bcast_S_S100000x256 (constant (F := F) S_ .f32 0x00000000#32))

/-- The second layer's aggregation, the same over 128 columns. -/
def agg128 (h : Arr[S100000x128, .f32]) (s d : Arr[S900000, .i32]) (n : Arr[S900000, .f32]) (b : Arr[S128, .f32]) : Arr[S100000x128, .f32] :=
  addf (F := F) (Host.scatterAdd (F := F) scatter_S100000x128_S900000x1_S900000x128_1_0_0_1 (broadcastInDim S100000x128 ![] bcast_S_S100000x128 (constant (F := F) S_ .f32 0x00000000#32)) (broadcastInDim S900000x1 ![0] bcast_S900000_S900000x1_0 d) (mulf (F := F) (Host.gather gather_S100000x128_S900000x1_S900000x128_1_0_n_n_0_1_1128 h (startIdx (F := F) s)) (broadcastInDim S900000x128 ![0, 1] bcast_S900000x1_S900000x128_0_1 (broadcastInDim S900000x1 ![0] bcast_S900000_S900000x1_0 n)))) (broadcastInDim S100000x128 ![0, 1] bcast_S1x128_S100000x128_0_1 (broadcastInDim S1x128 ![1] bcast_S128_S1x128_1 b))

/-- The first dense product, x · W1, as the host's contraction over the 512 features. -/
def lin1 (x : Arr[S100000x512, .f32]) (w : Arr[S512x256, .f32]) : Arr[S100000x256, .f32] :=
  Host.dotGeneral (F := F) (DotDims.plain 100000 512 256) none x w

/-- The second dense product, h · W2, as the host's contraction over the 256 hidden features. -/
def lin2 (h : Arr[S100000x256, .f32]) (w : Arr[S256x128, .f32]) : Arr[S100000x128, .f32] :=
  Host.dotGeneral (F := F) (DotDims.plain 100000 256 128) none h w

/-- The hidden layer after the relu, from a first product `h1` (whoever computed it). -/
def hidden (h1 : Arr[S100000x256, .f32]) (e : Arr[S2x800000, .i32]) (b1 : Arr[S256, .f32]) : Arr[S100000x256, .f32] :=
  relu256 (F := F) (agg256 (F := F) h1 (src (F := F) e) (dst (F := F) e) (norm (F := F) (src (F := F) e) (dst (F := F) e)) b1)

/-- The output layer, from a second product `h2`. -/
def output (h2 : Arr[S100000x128, .f32]) (e : Arr[S2x800000, .i32]) (b2 : Arr[S128, .f32]) : Arr[S100000x128, .f32] :=
  agg128 (F := F) h2 (src (F := F) e) (dst (F := F) e) (norm (F := F) (src (F := F) e) (dst (F := F) e)) b2

/-- The network. -/
def net (x : Arr[S100000x512, .f32]) (e : Arr[S2x800000, .i32]) (w1 : Arr[S512x256, .f32]) (b1 : Arr[S256, .f32])
    (w2 : Arr[S256x128, .f32]) (b2 : Arr[S128, .f32]) : Arr[S100000x128, .f32] :=
  output (F := F) (lin2 (F := F) (hidden (F := F) (lin1 (F := F) x w1) e b1) w2) e b2

end Cert.Gcn

end
-- ==== Proof.RefIsNet.lean ====
/-
  The reference program's result is the network of the specification. Its composed term applies, to the argument
  arrays, exactly the operations the specification names — the message endpoints, the degree, its inverse square
  root where positive, the per-message weight, and per layer a host contraction, the gather at the sources, the
  scaling, the scatter-add at the targets, the bias (and the relu between the layers); the reference recomputes the
  endpoints and the weights for its second layer, from the same edge list, so they are the same terms. Both sides are
  one tree of operations: the equation is by unfolding the names.
-/
import proofs.«103638_j61323543052323_1_alg».proof.Proof.Spec
import proofs.«103638_j61323543052323_1_alg».proof.Proof.RefRun

set_option maxRecDepth 16384

noncomputable section

namespace Cert.Gcn.Ref

open Idealize.ShloMosaic Idealize.ShloMosaic.TcCoe Idealize.SL.Sem

variable {F : FTy → Type} [FloatOps F]

/-- The reference's result array, as a term of the launch memory, is the network applied to the six argument arrays. -/
theorem result_eq (m : (ℓ : Loc Cert.ReferenceIdeal.nD Cert.ReferenceIdeal.τ Cert.ReferenceIdeal.sig) → Buf (Elt F) ℓ) (c : Dev Cert.ReferenceIdeal.nD) :
    Cert.ReferenceIdeal.ValueP.res_main_v94 m c
      = net (F := F) (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5)) := by
  unfold Cert.ReferenceIdeal.ValueP.res_main_v94 net output hidden lin1 lin2 agg128 agg256 relu256 norm dinv deg startIdx src dst ends
  rfl

end Cert.Gcn.Ref

end
-- ==== Proof.KernelRun.lean ====
/-
  The idealized kernel program's run with its RESULT named. The program is two row-blocked matrix products among
  stretches of host operations; at each boundary between a stretch and a product the device's buffers hold a definite
  valuation (the stretch's operations folded over the previous one; after a product, its output array at what the
  write-backs leave and every other buffer as it was). Every weakly fair execution terminates without a fault, and it
  ends with every unscoped buffer at the last valuation: so the result array ends at the last valuation's value there,
  and the six argument arrays end as launched. What the last valuation holds at the result is read, stretch by
  stretch, in the modules that import this one.
-/
import proofs.«103638_j61323543052323_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of the program terminates, nothing faulting, with
    the result array at the last boundary's valuation and the argument arrays as launched: the segments' run, the
    last thread state read against the final state at the result buffer and at each argument. -/
theorem run_result : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunValue

end
-- ==== Proof.HostStretches.lean ====
/-
  The host stretches of the kernel's program, read one at a time from ANY starting contents `V` of the device's buffers.
  The program is: three stretches that build the message endpoints and the normalisation (the edge list's two rows
  with the self loops appended; the degree as a scatter-add of ones; its inverse square root where positive; one
  weight per message), the first product, a stretch that aggregates it (gather at the sources, scale, scatter-add at
  the targets, add the bias) and the relu, the second product, and a last stretch that aggregates that one. Each
  stretch's result is the corresponding function of the specification applied to what the stretch reads; a buffer a
  stretch does not write keeps its contents.
-/
import proofs.«103638_j61323543052323_1_alg».proof.Proof.Spec
import proofs.«103638_j61323543052323_1_alg».proof.Proof.Gen.KernelIdeal.Launch
import Idealize.ShloMosaic.Lib.StableHlo.Run

noncomputable section

namespace Cert.Gcn.Stretch

open Idealize.ShloMosaic Idealize.ShloMosaic.StableHlo Idealize.SL.Sem Cert.KernelIdeal
open Cert.KernelIdeal.Gen (hostOps0 hostOps0_1 hostOps0_2 hostOps1 hostOps1_1 hostOps2)
open Cert.KernelIdeal.Facts₀ Cert.KernelIdeal.Facts

variable {F : FTy → Type} [FloatOps F]
variable (V : Valuation τ sig (Elt F))

/-! ## What each stretch writes, and that everything else is kept -/

/-- The buffers the first stretch writes. -/
abbrev wr0 : List (Ref sig .tc) := [main_v0, main_v1, main_v2, main_v3, main_v4, main_v5, main_v6, main_cst, main_v7, main_cst_0, main_v8, main_v9, main_v10, main_cst_1, main_v11, main_v12, main_v13, main_cst_2]
/-- The buffers the `where` stretch writes. -/
abbrev wr0_1 : List (Ref sig .tc) := [main_call0_v0, main_call0_v1, main_v14]
/-- The buffers the normalisation stretch writes. -/
abbrev wr0_2 : List (Ref sig .tc) := [main_c, main_v15, main_v16, main_c_3, main_v17, main_v18, main_v19, main_v20, main_v21, main_c_4, main_v22, main_v23, main_c_5, main_v24, main_v25, main_v26, main_v27, main_v28, main_v29]
/-- The buffers the first aggregation stretch writes. -/
abbrev wr1 : List (Ref sig .tc) := [main_c_6, main_v31, main_v32, main_c_7, main_v33, main_v34, main_v35, main_v36, main_v37, main_v38, main_v39, main_v40, main_cst_8, main_v41, main_v42, main_v43, main_v44, main_v45, main_v46]
/-- The buffers the relu stretch writes. -/
abbrev wr1_1 : List (Ref sig .tc) := [main_call1_cst, main_call1_v0, main_v47]
/-- The buffers the last stretch writes. -/
abbrev wr2 : List (Ref sig .tc) := [main_c_9, main_v49, main_v50, main_c_10, main_v51, main_v52, main_v53, main_v54, main_v55, main_v56, main_v57, main_v58, main_cst_11, main_v59, main_v60, main_v61, main_v62, main_v63, main_v64]

/-- Every operation of a stretch writes a buffer of the stretch's list (the operations' result buffers, read off). -/
macro "writes_listed" : tactic => `(tactic| (
  simp only [hostOps0, hostOps0_1, hostOps0_2, hostOps1, hostOps1_1, hostOps2, List.Forall, StableHlo.nullary_writes, StableHlo.unary_writes,
    StableHlo.binary_writes, StableHlo.ternary_writes, StableHlo.reshape_writes, Finset.singleton_subset_iff, List.mem_toFinset, List.map_cons,
    List.map_nil, List.mem_cons, true_or, or_true, and_self]))

theorem writes0 : (hostOps0 : List (HloOp τ sig (Elt F))).Forall fun op => op.writes ⊆ (wr0.map (Proc.devRef (τ := τ) .tc)).toFinset := by
  writes_listed
theorem writes0_1 : (hostOps0_1 : List (HloOp τ sig (Elt F))).Forall fun op => op.writes ⊆ (wr0_1.map (Proc.devRef (τ := τ) .tc)).toFinset := by
  writes_listed
theorem writes0_2 : (hostOps0_2 : List (HloOp τ sig (Elt F))).Forall fun op => op.writes ⊆ (wr0_2.map (Proc.devRef (τ := τ) .tc)).toFinset := by
  writes_listed
theorem writes1 : (hostOps1 : List (HloOp τ sig (Elt F))).Forall fun op => op.writes ⊆ (wr1.map (Proc.devRef (τ := τ) .tc)).toFinset := by
  writes_listed
theorem writes1_1 : (hostOps1_1 : List (HloOp τ sig (Elt F))).Forall fun op => op.writes ⊆ (wr1_1.map (Proc.devRef (τ := τ) .tc)).toFinset := by
  writes_listed
theorem writes2 : (hostOps2 : List (HloOp τ sig (Elt F))).Forall fun op => op.writes ⊆ (wr2.map (Proc.devRef (τ := τ) .tc)).toFinset := by
  writes_listed

theorem keep0 (r : Ref sig .tc) (hr : r ∉ wr0) : after hostOps0 V (Proc.devRef .tc r) = V (Proc.devRef .tc r) :=
  after_of_writes_sub _ V writes0 hr
theorem keep0_1 (r : Ref sig .tc) (hr : r ∉ wr0_1) : after hostOps0_1 V (Proc.devRef .tc r) = V (Proc.devRef .tc r) :=
  after_of_writes_sub _ V writes0_1 hr
theorem keep0_2 (r : Ref sig .tc) (hr : r ∉ wr0_2) : after hostOps0_2 V (Proc.devRef .tc r) = V (Proc.devRef .tc r) :=
  after_of_writes_sub _ V writes0_2 hr
theorem keep1 (r : Ref sig .tc) (hr : r ∉ wr1) : after hostOps1 V (Proc.devRef .tc r) = V (Proc.devRef .tc r) :=
  after_of_writes_sub _ V writes1 hr
theorem keep1_1 (r : Ref sig .tc) (hr : r ∉ wr1_1) : after hostOps1_1 V (Proc.devRef .tc r) = V (Proc.devRef .tc r) :=
  after_of_writes_sub _ V writes1_1 hr
theorem keep2 (r : Ref sig .tc) (hr : r ∉ wr2) : after hostOps2 V (Proc.devRef .tc r) = V (Proc.devRef .tc r) :=
  after_of_writes_sub _ V writes2 hr

/-! ## The first stretch: the message endpoints, and the degree's two readings -/

theorem s0_src : after hostOps0 V (Proc.devRef .tc main_v3) = src (F := F) (V (Proc.devRef .tc main_arg1)) := by
  after_results; rfl
theorem s0_dst : after hostOps0 V (Proc.devRef .tc main_v6) = dst (F := F) (V (Proc.devRef .tc main_arg1)) := by
  after_results; rfl
/-- where the degree is positive -/
theorem s0_pos : after hostOps0 V (Proc.devRef .tc main_v12)
    = cmpf (F := F) .ogt (deg (F := F) (dst (F := F) (V (Proc.devRef .tc main_arg1)))) (broadcastInDim S100000 ![] bcast_S_S100000 (constant (F := F) S_ .f32 0x00000000#32)) := by
  after_results; rfl
/-- the degree's inverse square root -/
theorem s0_rsqrt : after hostOps0 V (Proc.devRef .tc main_v13) = Host.rsqrt (F := F) (deg (F := F) (dst (F := F) (V (Proc.devRef .tc main_arg1)))) := by
  after_results; rfl
theorem s0_zero : after hostOps0 V (Proc.devRef .tc main_cst_2) = constant (F := F) S_ .f32 0x00000000#32 := by
  after_results

/-! ## The `where`: the inverse square root where the degree is positive, else 0 -/

theorem s01_dinv : after hostOps0_1 V (Proc.devRef .tc main_v14)
    = select (V (Proc.devRef .tc main_v12)) (V (Proc.devRef .tc main_v13)) (broadcastInDim S100000 ![] bcast_S_S100000 (id (V (Proc.devRef .tc main_cst_2)))) := by
  after_results; rfl

/-! ## The normalisation: one weight per message -/

set_option maxHeartbeats 2000000 in
theorem s02_norm : after hostOps0_2 V (Proc.devRef .tc main_v29)
    = mulf (F := F) (Host.gather gather_S100000_S900000x1_S900000_n_0_n_n_0_1_1 (V (Proc.devRef .tc main_v14)) (startIdx (F := F) (V (Proc.devRef .tc main_v3))))
        (Host.gather gather_S100000_S900000x1_S900000_n_0_n_n_0_1_1 (V (Proc.devRef .tc main_v14)) (startIdx (F := F) (V (Proc.devRef .tc main_v6)))) := by
  after_results_simp
  rfl

/-! ## The three stretches before the first product, together -/

theorem pre_src : after hostOps0_2 (after hostOps0_1 (after hostOps0 V)) (Proc.devRef .tc main_v3) = src (F := F) (V (Proc.devRef .tc main_arg1)) :=
  (keep0_2 _ main_v3 (by decide)).trans ((keep0_1 _ main_v3 (by decide)).trans (s0_src V))
theorem pre_dst : after hostOps0_2 (after hostOps0_1 (after hostOps0 V)) (Proc.devRef .tc main_v6) = dst (F := F) (V (Proc.devRef .tc main_arg1)) :=
  (keep0_2 _ main_v6 (by decide)).trans ((keep0_1 _ main_v6 (by decide)).trans (s0_dst V))
theorem pre_norm : after hostOps0_2 (after hostOps0_1 (after hostOps0 V)) (Proc.devRef .tc main_v29)
    = norm (F := F) (src (F := F) (V (Proc.devRef .tc main_arg1))) (dst (F := F) (V (Proc.devRef .tc main_arg1))) := by
  rw [s02_norm, s01_dinv, keep0_1 _ main_v3 (by decide), keep0_1 _ main_v6 (by decide), s0_src, s0_dst, s0_pos, s0_rsqrt, s0_zero]
  rfl
/-- An argument array goes through the three stretches untouched. -/
theorem pre_keep (r : Ref sig .tc) (h0 : r ∉ wr0) (h1 : r ∉ wr0_1) (h2 : r ∉ wr0_2) :
    after hostOps0_2 (after hostOps0_1 (after hostOps0 V)) (Proc.devRef .tc r) = V (Proc.devRef .tc r) :=
  (keep0_2 _ r h2).trans ((keep0_1 _ r h1).trans (keep0 V r h0))

/-! ## After the first product: the aggregation, then the relu -/

set_option maxHeartbeats 2000000 in
theorem s1_agg : after hostOps1 V (Proc.devRef .tc main_v46)
    = agg256 (F := F) (V (Proc.devRef .tc main_v30)) (V (Proc.devRef .tc main_v3)) (V (Proc.devRef .tc main_v6)) (V (Proc.devRef .tc main_v29)) (V (Proc.devRef .tc main_arg3)) := by
  after_results_simp
  rfl

theorem s11_relu : after hostOps1_1 V (Proc.devRef .tc main_v47) = relu256 (F := F) (V (Proc.devRef .tc main_v46)) := by
  after_results; rfl

/-! ## After the second product: the output aggregation -/

set_option maxHeartbeats 2000000 in
theorem s2_out : after hostOps2 V (Proc.devRef .tc main_v64)
    = agg128 (F := F) (V (Proc.devRef .tc main_v48)) (V (Proc.devRef .tc main_v3)) (V (Proc.devRef .tc main_v6)) (V (Proc.devRef .tc main_v29)) (V (Proc.devRef .tc main_arg5)) := by
  after_results_simp
  rfl

end Cert.Gcn.Stretch

end
-- ==== Proof.LibPlainMatmul.lean ====
/- Two contractions read at coordinates, on the extended reals, for any extents: a `tpu.matmul` with the plain dimension
   numbers (rows × contraction by contraction × columns) into the zero accumulator, at (p, c), is the sum over the
   contraction coordinate k of left(p, k) · right(k, c); and a lane sum of a matrix (a `vector.multi_reduction <add>`
   along axis 1 from the neutral accumulator), at row p, is the sum over k of the matrix at (p, k). Nothing here depends
   on a particular program: a printed record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainMatmul

/-- A matrix product with the plain dimension numbers into the zero accumulator, read at (p, c): the sum over the one
    contraction coordinate of the left operand's row p against the right operand's column c. -/
theorem plain_matmul_zero_apply {M K N : ℕ} {φ₁ φ₂ : FTy} (l : FVec Ideal ⟨2, ![M, K]⟩ φ₁) (r : FVec Ideal ⟨2, ![K, N]⟩ φ₂)
    (p : Fin M) (c : Fin N) :
    FloatOps.matmul (DotDims.plain M K N) none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A lane sum of a matrix from the neutral accumulator, read at row p: the sum over the lane coordinate of the matrix
    at (p, k). The hypotheses are typed as the library's reading of the reduction takes them; a printed body's proof
    arguments are accepted for them. -/
theorem rowSum_apply {A K : ℕ} (src : FVec Ideal ⟨2, ![A, K]⟩ .f32) (acc : BitVec 32)
    (h : (⟨2, ![A, K]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin K, src (ix2 p k) :=
  (Ideal.multiReduction_add_single src acc h hφ hacc (ix1 p)).trans
    (Finset.sum_congr rfl fun k _ => congrArg src (funext fun a => Fin.ext (by
      match a with
      | ⟨0, _⟩ => rfl
      | ⟨1, _⟩ => rfl)))

end Cert.Lib.PlainMatmul

end
-- ==== Proof.LibPlainDot.lean ====
/- The host's contraction read at coordinates, on the extended reals, for any extents: a `stablehlo.dot_general` with the
   plain dimension numbers (rows × contraction by contraction × columns), at (p, c), is the sum over the contraction
   coordinate k of left(p, k) · right(k, c) — whatever the precision annotation and the summation schedule, which the
   exact sum does not see. And a sum over an index range that is two ranges laid end to end is the sum over the first
   plus the sum over the second, in any commutative additive monoid (no finiteness): what splits a contraction over a
   concatenated operand into the contractions over its pieces. Nothing here depends on a particular program: a printed
   record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainDot

/-- A host contraction with the plain dimension numbers, read at (p, c): the sum over the one contraction coordinate
    of the left operand's row p against the right operand's column c. -/
theorem plain_dotGeneral_apply {M K N : ℕ} {φ₁ φ₂ : FTy} (prec : Option ContractPrecision) (sched : HostSchedule)
    (l : FVec Ideal ⟨2, ![M, K]⟩ φ₁) (r : FVec Ideal ⟨2, ![K, N]⟩ φ₂) (p : Fin M) (c : Fin N) :
    FloatOps.dotGeneral (DotDims.plain M K N) prec sched l r (ix2 p c) = ∑ k : Fin K, l (ix2 p k) * r (ix2 k c) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A sum over `Fin (a + b)` is the sum over the first `a` indices plus the sum over the last `b`, the latter
    numbered from `a`. -/
theorem sum_two_ranges {β : Type*} [AddCommMonoid β] (a b : ℕ) (f : Fin (a + b) → β) :
    ∑ k : Fin (a + b), f k = ∑ k : Fin a, f (Fin.castAdd b k) + ∑ k : Fin b, f (Fin.natAdd a k) :=
  Fin.sum_univ_add f

end Cert.Lib.PlainDot

end
-- ==== Proof.Blocks0.lean ====
/-
  The first row-blocked matrix product is the whole product. The region runs over 50 grid points; point t takes rows
  2000·t … 2000·t + 1999 of the left operand (all 512 columns), the whole right operand [512, 256], and writes
  rows 2000·t … 2000·t + 1999 of the output [100000, 256]. On the extended reals rounding the operands to bf16
  changes nothing, so what point t writes at (p, q) is Σ_k left(2000·t + p, k) · right(k, q) — entry (2000·t + p, q) of
  the host's contraction of the two whole arrays (no accumulator term: the block product starts from the zero
  accumulator, and 0 + s = s needs no finiteness). The 50 blocks tile the output (row r lies in block r / 2000), so
  after the region the output array IS the contraction. Stated at any region-entry contents `V`.
-/
import proofs.«103638_j61323543052323_1_alg».proof.Proof.Spec
import proofs.«103638_j61323543052323_1_alg».proof.Proof.Gen.KernelIdeal.Frame
import proofs.«103638_j61323543052323_1_alg».proof.Proof.LibPlainMatmul
import proofs.«103638_j61323543052323_1_alg».proof.Proof.LibPlainDot
import Idealize.ShloMosaic.Lib.Pipeline.Value
import Idealize.ShloMosaic.Lib.ValueIdx

set_option maxRecDepth 16384

noncomputable section

open scoped BigOperators

namespace Cert.Gcn.Blocks0

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Facts₀ Cert.KernelIdeal.Facts

variable (V : (c : Dev nD) → (b : Ref sig .tc) → Buf (Elt Ideal) ((c : Thread nD τ).loc b))

theorem zeroOff : (![0, 0] : Fin 2 → Nat) = fun _ => 0 := funext fun a => by fin_cases a <;> rfl

/-- The printed index maps, decided over the 50 grid points: the left operand's and the output's block row is the
    point, every other block index is 0. -/
theorem blockIdx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 50 := lt_of_lt_of_eq t.isLt N_0

/-- The body's stored value at (p, q): the sum over the contraction coordinate of the left block's row p against the
    right block's column q. -/
theorem payload_apply (x0 : Vec Ideal S2000x512 .f32) (x1 : Vec Ideal S512x256 .f32) (p : Fin 2000) (q : Fin 256) :
    k0_pay1 x0 x1 (ix2 p q) = ∑ k : Fin 512, x0 (ix2 p k) * x1 (ix2 k q) := by
  unfold k0_pay1
  exact Cert.Lib.PlainMatmul.plain_matmul_zero_apply (M := 2000) (K := 512) (N := 256) _ _ p q

/-- The left operand's block at point t, entry (p, k): the array's entry (2000·t + p, k). -/
theorem left_apply (c : Dev nD) (t : Fin cfg0.N) (p : Fin 2000) (k : Fin 512) (r : Fin 100000) (hr : r.val = 2000 * t.val + p.val) :
    (iblk0 V c 0 t : Vec Ideal S2000x512 .f32) (ix2 p k) = (V c main_arg0 : S100000x512.Idx → EReal) (ix2 r k) := by
  obtain ⟨e0, e1, -, -, -, -⟩ := blockIdx t
  unfold iblk0
  rw [View.read_apply]
  show V c main_arg0 _ = V c main_arg0 _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 512 + 1 * k.val = k.val; rw [e1]; omega

/-- The right operand's block at any point is the whole array. -/
theorem right_apply (c : Dev nD) (t : Fin cfg0.N) (k : Fin 512) (q : Fin 256) :
    (iblk0 V c 1 t : Vec Ideal S512x256 .f32) (ix2 k q) = (V c main_arg2 : S512x256.Idx → EReal) (ix2 k q) := by
  obtain ⟨-, -, e2, e3, -, -⟩ := blockIdx t
  unfold iblk0
  rw [View.read_apply]
  show V c main_arg2 _ = V c main_arg2 _
  congr 1
  funext a
  apply Fin.ext
  match a with
  | ⟨0, _⟩ => show win0_1.index t (0 : Fin 2) * 512 + 1 * k.val = k.val; rw [e2]; omega
  | ⟨1, _⟩ => show win0_1.index t (1 : Fin 2) * 256 + 1 * q.val = q.val; rw [e3]; omega

/-- Where the output block's entry (p, q) at point t sits in the output array: (2000·t + p, q). -/
theorem out_emb (t : Fin cfg0.N) (p : Fin 2000) (q : Fin 256) (r : Fin 100000) (hr : r.val = 2000 * t.val + p.val) :
    ((cfg0.win 2).blk t).view.emb (ix2 p q) = (ix2 r q : S100000x256.Idx) := by
  obtain ⟨-, -, -, -, e4, e5⟩ := blockIdx t
  funext a
  apply Fin.ext
  match a with
  | ⟨0, _⟩ => show win0_2.index t (0 : Fin 2) * 2000 + 1 * p.val = r.val; rw [e4, hr]; omega
  | ⟨1, _⟩ => show win0_2.index t (1 : Fin 2) * 256 + 1 * q.val = q.val; rw [e5]; omega

/-- WHAT POINT t WRITES BACK is block t of the whole product of the arrays as the region finds them. -/
theorem flushed_eq (c : Dev nD) (t : Fin cfg0.N) :
    (dat0 V c).flushed 2 t = ((cfg0.win 2).blk t).view.read (Elt Ideal) (lin1 (F := Ideal) (V c main_arg0) (V c main_arg2)) := by
  show (cfg0.win 2).cut (grid0.coords t) ((dat0 V c).after 2 t) = _
  rw [after0_2]
  unfold out0_2
  rw [View.canon_unit_zero zeroOff]
  simp only [View.ld_unit_zero (S := S2000x512) zeroOff, View.ld_unit_zero (S := S512x256) zeroOff]
  have ht := point_lt t
  funext j
  obtain ⟨p, q, rfl⟩ : ∃ (p : Fin 2000) (q : Fin 256), j = ix2 p q := ⟨j 0, j 1, eq_ix2 j⟩
  have hp := p.isLt
  show k0_pay1 (iblk0 V c 0 t) (iblk0 V c 1 t) (ix2 p q) = lin1 (F := Ideal) (V c main_arg0) (V c main_arg2) (((cfg0.win 2).blk t).view.emb (ix2 p q))
  rw [out_emb t p q ⟨2000 * t.val + p.val, by omega⟩ rfl]
  refine (payload_apply _ _ p q).trans ?_
  unfold lin1
  refine Eq.trans ?_ (Cert.Lib.PlainDot.plain_dotGeneral_apply (M := 100000) (K := 512) (N := 256) none .single _ _ _ q).symm
  refine Finset.sum_congr rfl fun k _ => ?_
  rw [left_apply V c t p k ⟨2000 * t.val + p.val, by omega⟩ rfl, right_apply V c t k q]

/-- An index of the output array is in point t's block iff each coordinate is in the block's range on its axis. -/
theorem mem_blk (t : Fin cfg0.N) (i : S100000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v30).slice (win0_2.rect t)).set ↔ _
  rw [View.set_slice_whole, Rect.mem_set_unit]
  exact Iff.rfl

/-- Every index of the output array is in some point's block: row r in block r / 2000. -/
theorem cover (i : S100000x256.Idx) : ∃ t : Fin cfg0.N, (cfg0.win 2).flush t = true ∧ i ∈ ((cfg0.win 2).blk t).view.set := by
  have hi0 : (i 0).val < 100000 := (i 0).isLt
  have hi1 : (i 1).val < 256 := (i 1).isLt
  have hN : cfg0.N = 50 := N_0
  refine ⟨⟨(i 0).val / 2000, by rw [hN]; omega⟩, flush0_2 _, ?_⟩
  obtain ⟨-, -, -, -, e4, e5⟩ := blockIdx ⟨(i 0).val / 2000, by rw [hN]; omega⟩
  rw [mem_blk]
  intro a
  match a with
  | ⟨0, _⟩ => show win0_2.index _ (0 : Fin 2) * 2000 ≤ (i 0).val ∧ (i 0).val < win0_2.index _ (0 : Fin 2) * 2000 + 2000; rw [e4]; show (i 0).val / 2000 * 2000 ≤ (i 0).val ∧ (i 0).val < (i 0).val / 2000 * 2000 + 2000; omega
  | ⟨1, _⟩ => show win0_2.index _ (1 : Fin 2) * 256 ≤ (i 1).val ∧ (i 1).val < win0_2.index _ (1 : Fin 2) * 256 + 256; rw [e5]; omega

/-- THE OUTPUT ARRAY after the region: the whole product of the two arrays as the region finds them. -/
theorem product (c : Dev nD) :
    (dat0 V c).arrAt 2 cfg0.N = lin1 (F := Ideal) (V c main_arg0) (V c main_arg2) :=
  (dat0 V c).arrAt_eq_of_cover 2 (lin1 (F := Ideal) (V c main_arg0) (V c main_arg2)) (fun t _ => flushed_eq V c t) cover

end Cert.Gcn.Blocks0

end
-- ==== Proof.Blocks1.lean ====
/-
  The second row-blocked matrix product is the whole product. The region runs over 50 grid points; point t takes rows
  2000·t … 2000·t + 1999 of the left operand (all 256 columns), the whole right operand [256, 128], and writes
  rows 2000·t … 2000·t + 1999 of the output [100000, 128]. On the extended reals rounding the operands to bf16
  changes nothing (and the body's reshape of the left block to its own shape is the identity), so what point t writes at (p, q) is Σ_k left(2000·t + p, k) · right(k, q) — entry (2000·t + p, q) of
  the host's contraction of the two whole arrays (no accumulator term: the block product starts from the zero
  accumulator, and 0 + s = s needs no finiteness). The 50 blocks tile the output (row r lies in block r / 2000), so
  after the region the output array IS the contraction. Stated at any region-entry contents `V`.
-/
import proofs.«103638_j61323543052323_1_alg».proof.Proof.Spec
import proofs.«103638_j61323543052323_1_alg».proof.Proof.Gen.KernelIdeal.Frame
import proofs.«103638_j61323543052323_1_alg».proof.Proof.LibPlainMatmul
import proofs.«103638_j61323543052323_1_alg».proof.Proof.LibPlainDot
import Idealize.ShloMosaic.Lib.Pipeline.Value
import Idealize.ShloMosaic.Lib.ValueIdx

set_option maxRecDepth 16384

noncomputable section

open scoped BigOperators

namespace Cert.Gcn.Blocks1

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Facts₀ Cert.KernelIdeal.Facts

variable (V : (c : Dev nD) → (b : Ref sig .tc) → Buf (Elt Ideal) ((c : Thread nD τ).loc b))

theorem zeroOff : (![0, 0] : Fin 2 → Nat) = fun _ => 0 := funext fun a => by fin_cases a <;> rfl

/-- The printed index maps, decided over the 50 grid points: the left operand's and the output's block row is the
    point, every other block index is 0. -/
theorem blockIdx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem point_lt (t : Fin cfg1.N) : t.val < 50 := lt_of_lt_of_eq t.isLt N_1

/-- The body's stored value at (p, q): the sum over the contraction coordinate of the left block's row p against the
    right block's column q. -/
theorem payload_apply (x0 : Vec Ideal S2000x256 .f32) (x1 : Vec Ideal S256x128 .f32) (p : Fin 2000) (q : Fin 128) :
    k1_pay1 x0 x1 (ix2 p q) = ∑ k : Fin 256, x0 (ix2 p k) * x1 (ix2 k q) := by
  unfold k1_pay1
  rw [shapeCast_self]
  exact Cert.Lib.PlainMatmul.plain_matmul_zero_apply (M := 2000) (K := 256) (N := 128) _ _ p q

/-- The left operand's block at point t, entry (p, k): the array's entry (2000·t + p, k). -/
theorem left_apply (c : Dev nD) (t : Fin cfg1.N) (p : Fin 2000) (k : Fin 256) (r : Fin 100000) (hr : r.val = 2000 * t.val + p.val) :
    (iblk1 V c 0 t : Vec Ideal S2000x256 .f32) (ix2 p k) = (V c main_v47 : S100000x256.Idx → EReal) (ix2 r k) := by
  obtain ⟨e0, e1, -, -, -, -⟩ := blockIdx t
  unfold iblk1
  rw [View.read_apply]
  show V c main_v47 _ = V c main_v47 _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 256 + 1 * k.val = k.val; rw [e1]; omega

/-- The right operand's block at any point is the whole array. -/
theorem right_apply (c : Dev nD) (t : Fin cfg1.N) (k : Fin 256) (q : Fin 128) :
    (iblk1 V c 1 t : Vec Ideal S256x128 .f32) (ix2 k q) = (V c main_arg4 : S256x128.Idx → EReal) (ix2 k q) := by
  obtain ⟨-, -, e2, e3, -, -⟩ := blockIdx t
  unfold iblk1
  rw [View.read_apply]
  show V c main_arg4 _ = V c main_arg4 _
  congr 1
  funext a
  apply Fin.ext
  match a with
  | ⟨0, _⟩ => show win1_1.index t (0 : Fin 2) * 256 + 1 * k.val = k.val; rw [e2]; omega
  | ⟨1, _⟩ => show win1_1.index t (1 : Fin 2) * 128 + 1 * q.val = q.val; rw [e3]; omega

/-- Where the output block's entry (p, q) at point t sits in the output array: (2000·t + p, q). -/
theorem out_emb (t : Fin cfg1.N) (p : Fin 2000) (q : Fin 128) (r : Fin 100000) (hr : r.val = 2000 * t.val + p.val) :
    ((cfg1.win 2).blk t).view.emb (ix2 p q) = (ix2 r q : S100000x128.Idx) := by
  obtain ⟨-, -, -, -, e4, e5⟩ := blockIdx t
  funext a
  apply Fin.ext
  match a with
  | ⟨0, _⟩ => show win1_2.index t (0 : Fin 2) * 2000 + 1 * p.val = r.val; rw [e4, hr]; omega
  | ⟨1, _⟩ => show win1_2.index t (1 : Fin 2) * 128 + 1 * q.val = q.val; rw [e5]; omega

/-- WHAT POINT t WRITES BACK is block t of the whole product of the arrays as the region finds them. -/
theorem flushed_eq (c : Dev nD) (t : Fin cfg1.N) :
    (dat1 V c).flushed 2 t = ((cfg1.win 2).blk t).view.read (Elt Ideal) (lin2 (F := Ideal) (V c main_v47) (V c main_arg4)) := by
  show (cfg1.win 2).cut (grid1.coords t) ((dat1 V c).after 2 t) = _
  rw [after1_2]
  unfold out1_2
  rw [View.canon_unit_zero zeroOff]
  simp only [View.ld_unit_zero (S := S2000x256) zeroOff, View.ld_unit_zero (S := S256x128) zeroOff]
  have ht := point_lt t
  funext j
  obtain ⟨p, q, rfl⟩ : ∃ (p : Fin 2000) (q : Fin 128), j = ix2 p q := ⟨j 0, j 1, eq_ix2 j⟩
  have hp := p.isLt
  show k1_pay1 (iblk1 V c 0 t) (iblk1 V c 1 t) (ix2 p q) = lin2 (F := Ideal) (V c main_v47) (V c main_arg4) (((cfg1.win 2).blk t).view.emb (ix2 p q))
  rw [out_emb t p q ⟨2000 * t.val + p.val, by omega⟩ rfl]
  refine (payload_apply _ _ p q).trans ?_
  unfold lin2
  refine Eq.trans ?_ (Cert.Lib.PlainDot.plain_dotGeneral_apply (M := 100000) (K := 256) (N := 128) none .single _ _ _ q).symm
  refine Finset.sum_congr rfl fun k _ => ?_
  rw [left_apply V c t p k ⟨2000 * t.val + p.val, by omega⟩ rfl, right_apply V c t k q]

/-- An index of the output array is in point t's block iff each coordinate is in the block's range on its axis. -/
theorem mem_blk (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v48).slice (win1_2.rect t)).set ↔ _
  rw [View.set_slice_whole, Rect.mem_set_unit]
  exact Iff.rfl

/-- Every index of the output array is in some point's block: row r in block r / 2000. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 50 := N_1
  refine ⟨⟨(i 0).val / 2000, by rw [hN]; omega⟩, flush1_2 _, ?_⟩
  obtain ⟨-, -, -, -, e4, e5⟩ := blockIdx ⟨(i 0).val / 2000, by rw [hN]; omega⟩
  rw [mem_blk]
  intro a
  match a with
  | ⟨0, _⟩ => show win1_2.index _ (0 : Fin 2) * 2000 ≤ (i 0).val ∧ (i 0).val < win1_2.index _ (0 : Fin 2) * 2000 + 2000; rw [e4]; show (i 0).val / 2000 * 2000 ≤ (i 0).val ∧ (i 0).val < (i 0).val / 2000 * 2000 + 2000; omega
  | ⟨1, _⟩ => show win1_2.index _ (1 : Fin 2) * 128 ≤ (i 1).val ∧ (i 1).val < win1_2.index _ (1 : Fin 2) * 128 + 128; rw [e5]; omega

/-- THE OUTPUT ARRAY after the region: the whole product of the two arrays as the region finds them. -/
theorem product (c : Dev nD) :
    (dat1 V c).arrAt 2 cfg1.N = lin2 (F := Ideal) (V c main_v47) (V c main_arg4) :=
  (dat1 V c).arrAt_eq_of_cover 2 (lin2 (F := Ideal) (V c main_v47) (V c main_arg4)) (fun t _ => flushed_eq V c t) cover

end Cert.Gcn.Blocks1

end
-- ==== Proof.KernelValue.lean ====
/-
  The idealized kernel program's result, read through its run boundary by boundary on the extended reals. From the
  launch memory, the three opening stretches leave the message endpoints and weights (functions of the edge list
  alone) and do not touch the argument arrays; the first region leaves x · W1 (its 50 row blocks tile the product);
  the aggregation and the relu leave the hidden layer; the second region leaves hidden · W2; the last stretch
  aggregates it. Nothing a later stretch or region reads is overwritten in between: the endpoints and weights
  computed once serve both layers. The result array therefore ends at the network of the specification applied to
  the six argument arrays.
-/
import proofs.«103638_j61323543052323_1_alg».proof.Proof.Spec
import proofs.«103638_j61323543052323_1_alg».proof.Proof.KernelRun
import proofs.«103638_j61323543052323_1_alg».proof.Proof.HostStretches
import proofs.«103638_j61323543052323_1_alg».proof.Proof.Blocks0
import proofs.«103638_j61323543052323_1_alg».proof.Proof.Blocks1

set_option maxRecDepth 16384

noncomputable section

namespace Cert.Gcn.KernelValue

open Idealize.ShloMosaic Idealize.ShloMosaic.TcCoe Idealize.ShloMosaic.StableHlo Idealize.SL.Sem
open Cert.KernelIdeal Cert.KernelIdeal.Gen Cert.Gcn.Stretch

variable (m : (ℓ : Loc nD τ sig) → Buf (Elt Ideal) ℓ) (ρ : Dev nD → PrngReg) (c : Dev nD)

/-! ## Before the first product -/

theorem W3_src : W3 m ρ c (Proc.devRef .tc main_v3) = src (F := Ideal) (m ((c : Thread nD τ).loc main_arg1)) := pre_src (W0 m ρ c)
theorem W3_dst : W3 m ρ c (Proc.devRef .tc main_v6) = dst (F := Ideal) (m ((c : Thread nD τ).loc main_arg1)) := pre_dst (W0 m ρ c)
theorem W3_norm : W3 m ρ c (Proc.devRef .tc main_v29)
    = norm (F := Ideal) (src (F := Ideal) (m ((c : Thread nD τ).loc main_arg1))) (dst (F := Ideal) (m ((c : Thread nD τ).loc main_arg1))) := pre_norm (W0 m ρ c)
theorem W3_arg0 : W3 m ρ c (Proc.devRef .tc main_arg0) = m ((c : Thread nD τ).loc main_arg0) := pre_keep (W0 m ρ c) main_arg0 (by decide) (by decide) (by decide)
theorem W3_arg2 : W3 m ρ c (Proc.devRef .tc main_arg2) = m ((c : Thread nD τ).loc main_arg2) := pre_keep (W0 m ρ c) main_arg2 (by decide) (by decide) (by decide)
theorem W3_arg3 : W3 m ρ c (Proc.devRef .tc main_arg3) = m ((c : Thread nD τ).loc main_arg3) := pre_keep (W0 m ρ c) main_arg3 (by decide) (by decide) (by decide)
theorem W3_arg4 : W3 m ρ c (Proc.devRef .tc main_arg4) = m ((c : Thread nD τ).loc main_arg4) := pre_keep (W0 m ρ c) main_arg4 (by decide) (by decide) (by decide)
theorem W3_arg5 : W3 m ρ c (Proc.devRef .tc main_arg5) = m ((c : Thread nD τ).loc main_arg5) := pre_keep (W0 m ρ c) main_arg5 (by decide) (by decide) (by decide)

/-! ## The first product, and what it leaves alone -/

theorem W4_prod : W4 m ρ c (Proc.devRef .tc main_v30) = lin1 (F := Ideal) (m ((c : Thread nD τ).loc main_arg0)) (m ((c : Thread nD τ).loc main_arg2)) := by
  refine (W4_arr m ρ c 2).trans ((Cert.Gcn.Blocks0.product (V3 m ρ) c).trans ?_)
  show lin1 (F := Ideal) (W3 m ρ c (Proc.devRef .tc main_arg0)) (W3 m ρ c (Proc.devRef .tc main_arg2)) = _
  rw [W3_arg0, W3_arg2]

theorem W4_src : W4 m ρ c (Proc.devRef .tc main_v3) = W3 m ρ c (Proc.devRef .tc main_v3) := W4_of_ne m ρ c main_v3 (by decide)
theorem W4_dst : W4 m ρ c (Proc.devRef .tc main_v6) = W3 m ρ c (Proc.devRef .tc main_v6) := W4_of_ne m ρ c main_v6 (by decide)
theorem W4_norm : W4 m ρ c (Proc.devRef .tc main_v29) = W3 m ρ c (Proc.devRef .tc main_v29) := W4_of_ne m ρ c main_v29 (by decide)
theorem W4_arg3 : W4 m ρ c (Proc.devRef .tc main_arg3) = W3 m ρ c (Proc.devRef .tc main_arg3) := W4_of_ne m ρ c main_arg3 (by decide)
theorem W4_arg4 : W4 m ρ c (Proc.devRef .tc main_arg4) = W3 m ρ c (Proc.devRef .tc main_arg4) := W4_of_ne m ρ c main_arg4 (by decide)
theorem W4_arg5 : W4 m ρ c (Proc.devRef .tc main_arg5) = W3 m ρ c (Proc.devRef .tc main_arg5) := W4_of_ne m ρ c main_arg5 (by decide)

/-! ## The hidden layer -/

/-- The hidden layer, as the second region finds it. -/
theorem W6_hidden : W6 m ρ c (Proc.devRef .tc main_v47)
    = hidden (F := Ideal) (lin1 (F := Ideal) (m ((c : Thread nD τ).loc main_arg0)) (m ((c : Thread nD τ).loc main_arg2)))
        (m ((c : Thread nD τ).loc main_arg1)) (m ((c : Thread nD τ).loc main_arg3)) := by
  refine (s11_relu (W5 m ρ c)).trans ?_
  refine (congrArg (relu256 (F := Ideal)) (s1_agg (W4 m ρ c))).trans ?_
  rw [W4_prod, W4_src, W4_dst, W4_norm, W4_arg3, W3_src, W3_dst, W3_norm, W3_arg3]
  rfl

/-- What the aggregation and the relu leave alone. -/
theorem W6_keep (r : Ref sig .tc) (h1 : r ∉ wr1) (h11 : r ∉ wr1_1) : W6 m ρ c (Proc.devRef .tc r) = W4 m ρ c (Proc.devRef .tc r) :=
  (keep1_1 (W5 m ρ c) r h11).trans (keep1 (W4 m ρ c) r h1)

/-! ## The second product, and what it leaves alone -/

theorem W7_prod : W7 m ρ c (Proc.devRef .tc main_v48)
    = lin2 (F := Ideal) (hidden (F := Ideal) (lin1 (F := Ideal) (m ((c : Thread nD τ).loc main_arg0)) (m ((c : Thread nD τ).loc main_arg2)))
        (m ((c : Thread nD τ).loc main_arg1)) (m ((c : Thread nD τ).loc main_arg3))) (m ((c : Thread nD τ).loc main_arg4)) := by
  refine (W7_arr m ρ c 2).trans ((Cert.Gcn.Blocks1.product (V6 m ρ) c).trans ?_)
  show lin2 (F := Ideal) (W6 m ρ c (Proc.devRef .tc main_v47)) (W6 m ρ c (Proc.devRef .tc main_arg4)) = _
  rw [W6_hidden, W6_keep m ρ c main_arg4 (by decide) (by decide), W4_arg4, W3_arg4]

theorem W7_src : W7 m ρ c (Proc.devRef .tc main_v3) = src (F := Ideal) (m ((c : Thread nD τ).loc main_arg1)) :=
  (W7_of_ne m ρ c main_v3 (by decide)).trans ((W6_keep m ρ c main_v3 (by decide) (by decide)).trans ((W4_src m ρ c).trans (W3_src m ρ c)))
theorem W7_dst : W7 m ρ c (Proc.devRef .tc main_v6) = dst (F := Ideal) (m ((c : Thread nD τ).loc main_arg1)) :=
  (W7_of_ne m ρ c main_v6 (by decide)).trans ((W6_keep m ρ c main_v6 (by decide) (by decide)).trans ((W4_dst m ρ c).trans (W3_dst m ρ c)))
theorem W7_norm : W7 m ρ c (Proc.devRef .tc main_v29)
    = norm (F := Ideal) (src (F := Ideal) (m ((c : Thread nD τ).loc main_arg1))) (dst (F := Ideal) (m ((c : Thread nD τ).loc main_arg1))) :=
  (W7_of_ne m ρ c main_v29 (by decide)).trans ((W6_keep m ρ c main_v29 (by decide) (by decide)).trans ((W4_norm m ρ c).trans (W3_norm m ρ c)))
theorem W7_arg5 : W7 m ρ c (Proc.devRef .tc main_arg5) = m ((c : Thread nD τ).loc main_arg5) :=
  (W7_of_ne m ρ c main_arg5 (by decide)).trans ((W6_keep m ρ c main_arg5 (by decide) (by decide)).trans ((W4_arg5 m ρ c).trans (W3_arg5 m ρ c)))

/-! ## The result -/

/-- The result array at the last boundary: the network of the six argument arrays. -/
theorem result : W8 m ρ c (Proc.devRef .tc main_v64)
    = net (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (s2_out (W7 m ρ c)).trans ?_
  rw [W7_prod, W7_src, W7_dst, W7_norm, W7_arg5]
  rfl

/-- The run, read: every weakly fair execution of the idealized kernel program ends with the result array at the
    network of the argument arrays, and the argument arrays as launched. -/
theorem run : θ_run defs (onTc (τ := τ) (main (F := Ideal))) ⟨m, fun _ => 0, ρ⟩ (fun r => ∀ c : Dev nD,
      r.2.mem ((c.tc : Thread nD τ).loc main_v64)
        = net (F := Ideal) (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (result m ρ c), (h c).2⟩) (Cert.KernelIdeal.RunValue.run_result m ρ)

end Cert.Gcn.KernelValue

end
-- ==== Proof.lean ====
/-
  A two-layer graph convolution on 100000 nodes and 800000 edges (plus one self loop per node): per layer a dense
  product, then for every message (source s, target d) the source's row scaled by deg(s)^(-1/2) · deg(d)^(-1/2) is
  added into the target's row, then the bias; a relu between the layers. The kernel program computes the two dense
  products in row blocks of 2000 on the TensorCore (operands rounded to bf16 on the way in, f32 accumulation from a
  zero accumulator) and everything else with the same host operations as the reference; it also computes the
  message endpoints and weights once where the reference computes them once per layer.

  On the extended reals a change of float format is the identity and a block product from the zero accumulator is
  the plain sum over the contraction index, so each region leaves exactly the host contraction of its two whole
  arrays, block by block (the 50 blocks tile the 100000 rows). The rest of both programs is one and the same tree of
  operations applied to equal operands, and is never opened: not the gathers, not the scatter-adds, not the inverse
  square root. No algebraic law beyond 0 + s = s is used, so the finiteness of the inputs is never needed.

  The three frames: the two kernel programs' are their launch-side certificates; the reference has no kernel, and
  its frame is its run with the result dropped. The idealization rewrote no operation, so there is nothing to
  preserve beyond the program's own text.
-/
import proofs.«103638_j61323543052323_1_alg».proof.Defs
import proofs.«103638_j61323543052323_1_alg».proof.Proof.Gen.Kernel
import proofs.«103638_j61323543052323_1_alg».proof.Proof.Gen.Kernel.Skeleton
import proofs.«103638_j61323543052323_1_alg».proof.Proof.Gen.Kernel.Launch
import proofs.«103638_j61323543052323_1_alg».proof.Proof.Gen.Kernel.Points
import proofs.«103638_j61323543052323_1_alg».proof.Proof.Gen.Kernel.Frame
import proofs.«103638_j61323543052323_1_alg».proof.Proof.Gen.KernelIdeal
import proofs.«103638_j61323543052323_1_alg».proof.Proof.Gen.KernelIdeal.Skeleton
import proofs.«103638_j61323543052323_1_alg».proof.Proof.Gen.KernelIdeal.Launch
import proofs.«103638_j61323543052323_1_alg».proof.Proof.Gen.KernelIdeal.Points
import proofs.«103638_j61323543052323_1_alg».proof.Proof.Gen.KernelIdeal.Frame
import proofs.«103638_j61323543052323_1_alg».proof.Proof.Gen.ReferenceIdeal
import proofs.«103638_j61323543052323_1_alg».proof.Proof.Gen.Pre_finite_inputs
import proofs.«103638_j61323543052323_1_alg».proof.Proof.RefRun
import proofs.«103638_j61323543052323_1_alg».proof.Proof.RefIsNet
import proofs.«103638_j61323543052323_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- From memories agreeing on the six arguments both idealized programs end with the result array at the network
    of the specification applied to those arguments: the kernel program by its run read boundary by boundary, the
    reference by its composed term, which is that network by unfolding. -/
theorem algebraic : Cert.algebraic_KernelIdeal_ReferenceIdeal := by
  intro m ρ m' ρ' _ hagree
  refine ⟨fun c => Cert.Gcn.net (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.Gcn.KernelValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5⟩ := hagree c
  rw [Cert.Gcn.Ref.result_eq, e0, e1, e2, e3, e4, e5]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
